-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel

variable [Facts]

def fn {F : FTy → Type} [FloatOps F] (main_arg0 : FVec F S16x2048x64 .f32) (main_arg1 : FVec F S16x2048x64 .f32) (main_arg2 : FVec F S16x2048x64 .f32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S16x2048x64 .f32 := Host.absf main_arg1
  let main_cst_0 : FVec F S_ .f32 := constant S_ .f32 0x7F800000#32
  let main_v5 : FVec F S16x2048x64 .f32 := broadcastInDim S16x2048x64 ![] bcast_S_S16x2048x64 main_cst_0
  let main_v6 : IVec S16x2048x64 1 := cmpf .olt main_v4 main_v5
  let main_c_1 : IVec S_ 1 := constantI S_ 1 1#1
  let main_v7 : IVec S_ 1 := (fun x v => Host.reduce IntOp.andi x v reducesTo_S16x2048x64_S_d0_1_2 h_S_) main_v6 main_c_1
  let main_v8 : IVec S_ 1 := andi main_v3 main_v7
  let main_v9 : FVec F S16x2048x64 .f32 := Host.absf main_arg2
  let main_cst_2 : FVec F S_ .f32 := constant S_ .f32 0x7F800000#32
  let main_v10 : FVec F S16x2048x64 .f32 := broadcastInDim S16x2048x64 ![] bcast_S_S16x2048x64 main_cst_2
  let main_v11 : IVec S16x2048x64 1 := cmpf .olt main_v9 main_v10
  let main_c_3 : IVec S_ 1 := constantI S_ 1 1#1
  let main_v12 : IVec S_ 1 := (fun x v => Host.reduce IntOp.andi x v reducesTo_S16x2048x64_S_d0_1_2 h_S_) main_v11 main_c_3
  let main_v13 : IVec S_ 1 := andi main_v8 main_v12
  main_v13
-- ==== Kernel.lean ====
abbrev S16x2048x64 : Shape := ⟨3, ![16, 2048, 64]⟩
abbrev S16x2048x2048 : Shape := ⟨3, ![16, 2048, 2048]⟩
abbrev S1x256x64 : Shape := ⟨3, ![1, 256, 64]⟩
abbrev S1x2048x64 : Shape := ⟨3, ![1, 2048, 64]⟩
abbrev S1x256x2048 : Shape := ⟨3, ![1, 256, 2048]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x64, .bf16⟩
  | .hbm, ⟨4, _⟩ => ⟨S16x2048x64, .bf16⟩
  | .hbm, ⟨5, _⟩ => ⟨S16x2048x64, .bf16⟩
  | .hbm, ⟨6, _⟩ => ⟨S16x2048x64, .f32⟩
  | .hbm, ⟨7, _⟩ => ⟨S16x2048x2048, .f32⟩
  | .local _ .vmem, ⟨0, _⟩ => ⟨S1x256x64, .bf16⟩
  | .local _ .vmem, ⟨1, _⟩ => ⟨S1x256x64, .bf16⟩
  | .local _ .vmem, ⟨2, _⟩ => ⟨S1x2048x64, .bf16⟩
  | .local _ .vmem, ⟨3, _⟩ => ⟨S1x2048x64, .bf16⟩
  | .local _ .vmem, ⟨4, _⟩ => ⟨S1x2048x64, .bf16⟩
  | .local _ .vmem, ⟨5, _⟩ => ⟨S1x2048x64, .bf16⟩
  | .local _ .vmem, ⟨6, _⟩ => ⟨S1x256x64, .f32⟩
  | .local _ .vmem, ⟨7, _⟩ => ⟨S1x256x64, .f32⟩
  | .local _ .vmem, ⟨8, _⟩ => ⟨S1x256x2048, .f32⟩
  | .local _ .vmem, ⟨9, _⟩ => ⟨S1x256x2048, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  iota_S256x2048_d0_w32 : S256x2048.Iotas .tc 32 [0]
  iota_S256x2048_d1_w32 : S256x2048.Iotas .tc 32 [1]
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  shapeCasts_S256x64_S1x256x64 : S256x64.ShapeCasts S1x256x64
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S16x2048x64.size a
  hwx0_0 : ∀ i : grid0.Coords, EltTy.bits .bf16 = 32 ∨ (Rect.block (s := S16x2048x64) S1x256x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .bf16 = 32 ∨ (Rect.block (s := S16x2048x64) S1x2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .bf16 = 32 ∨ (Rect.block (s := S16x2048x64) S1x2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x64.size a ≤ S16x2048x64.size a
  hwx0_3 : ∀ i : grid0.Coords, EltTy.bits .f32 = 32 ∨ (Rect.block (s := S16x2048x64) S1x256x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S16x2048x2048.size a
  hwx0_4 : ∀ i : grid0.Coords, EltTy.bits .f32 = 32 ∨ (Rect.block (s := S16x2048x2048) S1x256x2048.size (cc0_transform_4 i) (hinb0_4 i)).WholeWords (EltTy.packing .f32)

variable [Facts₀]

def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x256x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x2048x64 : Shape := ⟨3, ![16, 2048, 64]⟩
abbrev S16x2048x2048 : Shape := ⟨3, ![16, 2048, 2048]⟩
abbrev S_ : Shape := ⟨0, ![]⟩
abbrev S2048x2048 : Shape := ⟨2, ![2048, 2048]⟩
abbrev S1x2048x2048 : Shape := ⟨3, ![1, 2048, 2048]⟩
abbrev S16x2048 : Shape := ⟨2, ![16, 2048]⟩
abbrev S16x2048x1 : Shape := ⟨3, ![16, 2048, 1]⟩

abbrev nBuf : Space → Nat
  | .hbm => 39
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x2048, .f32⟩
  | .hbm, ⟨4, _⟩ => ⟨S_, .f32⟩
  | .hbm, ⟨5, _⟩ => ⟨S_, .f32⟩
  | .hbm, ⟨6, _⟩ => ⟨S16x2048x2048, .f32⟩
  | .hbm, ⟨7, _⟩ => ⟨S16x2048x2048, .f32⟩
  | .hbm, ⟨8, _⟩ => ⟨S_, .i1⟩
  | .hbm, ⟨9, _⟩ => ⟨S2048x2048, .i1⟩
  | .hbm, ⟨10, _⟩ => ⟨S2048x2048, .i32⟩
  | .hbm, ⟨11, _⟩ => ⟨S_, .i32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S_, .i1⟩
  | .hbm, ⟨17, _⟩ => ⟨S2048x2048, .i1⟩
  | .hbm, ⟨18, _⟩ => ⟨S2048x2048, .i1⟩
  | .hbm, ⟨19, _⟩ => ⟨S1x2048x2048, .i1⟩
  | .hbm, ⟨20, _⟩ => ⟨S_, .f32⟩
  | .hbm, ⟨21, _⟩ => ⟨S16x2048x2048, .i1⟩
  | .hbm, ⟨22, _⟩ => ⟨S16x2048x2048, .f32⟩
  | .hbm, ⟨23, _⟩ => ⟨S16x2048x2048, .f32⟩
  | .hbm, ⟨24, _⟩ => ⟨S_, .f32⟩
  | .hbm, ⟨25, _⟩ => ⟨S16x2048, .f32⟩
  | .hbm, ⟨26, _⟩ => ⟨S_, .f32⟩
  | .hbm, ⟨27, _⟩ => ⟨S16x2048, .f32⟩
  | .hbm, ⟨28, _⟩ => ⟨S16x2048, .f32⟩
  | .hbm, ⟨29, _⟩ => ⟨S16x2048x1, .f32⟩
  | .hbm, ⟨30, _⟩ => ⟨S16x2048x2048, .f32⟩
  | .hbm, ⟨31, _⟩ => ⟨S16x2048x2048, .f32⟩
  | .hbm, ⟨32, _⟩ => ⟨S16x2048x2048, .f32⟩
  | .hbm, ⟨33, _⟩ => ⟨S_, .f32⟩
  | .hbm, ⟨34, _⟩ => ⟨S16x2048, .f32⟩
  | .hbm, ⟨35, _⟩ => ⟨S16x2048x1, .f32⟩
  | .hbm, ⟨36, _⟩ => ⟨S16x2048x2048, .f32⟩
  | .hbm, ⟨37, _⟩ => ⟨S16x2048x2048, .f32⟩
  | .hbm, ⟨38, _⟩ => ⟨S16x2048x64, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_0 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_call1_v0 : Ref sig .tc := ⟨.hbm, 21, rfl⟩
abbrev main_call1_v1 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_cst_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S16x2048x2048_0_1_2 : S1x2048x2048.BroadcastsInDim S16x2048x2048 (![0, 1, 2] : Fin 3 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]

variable [Facts₀]

def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.AttentionSpec.lean ====
/-
  Causal softmax attention over [16, 2048, 64] queries, keys and values, as ONE function of the three argument
  arrays on the extended reals, index by index.

  For a batch `b`, a query row `q` and a key row `k`:
    dotQK b q k   = ∑ d, Q[b,q,d] · K[b,k,d]
    score b q k   = dotQK b q k · 1/8                       (1/8 = 1/√64, the word 0x3E000000)
    masked b q k  = score b q k  if k ≤ q,  else the fill (the word 0xCE6E6B28, -1e9)
    rowMax b q    = the maximum over k of masked b q k      (a fold of max seeded with the word 0xFF800000)
    expo b q k    = exp (masked b q k - rowMax b q)
    denom b q     = ∑ k, expo b q k
    weight b q k  = expo b q k / denom b q
    output b q d  = ∑ k, weight b q k · V[b,k,d]
  The float words are kept as words: the same word appears on both sides of every comparison and is never evaluated,
  except 64 and 1/8, which meet in `div_sqrt_sixtyfour`.
-/
import Idealize.ShloMosaic.PureOps.Ideal
import Idealize.ShloMosaic.PureOps.Ideal.Laws
import Idealize.ShloMosaic.Lib.ValueIdx
import Mathlib.Data.Finset.Fold

noncomputable section

namespace Cert.Attention

open Idealize.ShloMosaic Idealize.ShloMosaic.ValueIdx

/-- The arrays' index types: [16, 2048, 64] for queries, keys, values and the output; [16, 2048, 2048] for the weights. -/
abbrev SArg : Shape := ⟨3, ![16, 2048, 64]⟩
abbrev SWts : Shape := ⟨3, ![16, 2048, 2048]⟩

/-- The three float words of the computation, as extended reals: the scale 1/8, the mask's fill -1e9, the maximum's seed. -/
abbrev scaleW : EReal := Ideal.ofBits .f32 0x3E000000#32
abbrev fillW : EReal := Ideal.ofBits .f32 0xCE6E6B28#32
abbrev seedW : EReal := Ideal.ofBits .f32 0xFF800000#32

variable (Q K V : SArg.Idx → EReal)

/-- The inner product of query row `q` and key row `k` of batch `b`, over the 64 features. -/
def dotQK (b : Fin 16) (q k : Fin 2048) : EReal := ∑ d : Fin 64, Q (ix3 b q d) * K (ix3 b k d)

/-- The scaled score. -/
def score (b : Fin 16) (q k : Fin 2048) : EReal := dotQK Q K b q k * scaleW

/-- The causal mask: a key after the query is replaced by the fill. -/
def masked (b : Fin 16) (q k : Fin 2048) : EReal := if k.val ≤ q.val then score Q K b q k else fillW

/-- The row's maximum over the keys. -/
def rowMax (b : Fin 16) (q : Fin 2048) : EReal :=
  (Finset.univ : Finset (Fin 2048)).fold max seedW (fun k => masked Q K b q k)

/-- The exponential of the masked score less the row's maximum. -/
def expo (b : Fin 16) (q k : Fin 2048) : EReal := Ideal.exp (masked Q K b q k - rowMax Q K b q)

/-- The row's normaliser. -/
def denom (b : Fin 16) (q : Fin 2048) : EReal := ∑ k : Fin 2048, expo Q K b q k

/-- The attention weight of key `k` for query `q`. -/
def weight (b : Fin 16) (q k : Fin 2048) : EReal := Ideal.div (expo Q K b q k) (denom Q K b q)

/-- The weights array. -/
def weights : SWts.Idx → EReal := fun i => weight Q K (i 0) (i 1) (i 2)

/-- The output array: the weighted sum of the value rows. -/
def output : SArg.Idx → EReal := fun i => ∑ k : Fin 2048, weight Q K (i 0) (i 1) k * V (ix3 (i 0) k (i 2))

/-! ## The two laws that join a quotient by √64 to a product with 1/8, and a doubled maximum to one -/

theorem ofBits_sixtyfour : Ideal.ofBits .f32 0x42800000#32 = ((64 : ℝ) : EReal) := by
  simp [Ideal.ofBits, Ideal.ieee, -EReal.coe_mul]; norm_num

theorem ofBits_eighth : Ideal.ofBits .f32 0x3E000000#32 = (((1 : ℝ) / 8 : ℝ) : EReal) := by
  simp [Ideal.ofBits, Ideal.ieee, -EReal.coe_mul]; norm_num

/-- √64 = 8 on the extended reals. -/
theorem sqrt_sixtyfour : Ideal.sqrt (Ideal.ofBits .f32 0x42800000#32) = ((8 : ℝ) : EReal) := by
  rw [ofBits_sixtyfour, Ideal.sqrt_coe, if_neg (by norm_num)]
  have h : Real.sqrt 64 = 8 := by
    rw [show (64 : ℝ) = 8 ^ 2 by norm_num]
    exact Real.sqrt_sq (by norm_num)
  rw [h]

/-- The quotient by √64 is the product with 1/8, at every extended real. -/
theorem div_sqrt_sixtyfour (x : EReal) :
    Ideal.div x (Ideal.sqrt (Ideal.ofBits .f32 0x42800000#32)) = x * scaleW := by
  show _ = x * Ideal.ofBits .f32 0x3E000000#32
  rw [sqrt_sixtyfour, Ideal.div_coe (by norm_num : (8 : ℝ) ≠ 0), ofBits_eighth]

/-- A maximum taken once more against the fold's own seed changes nothing. -/
theorem max_seed_fold {ι : Type} (s : Finset ι) (a : EReal) (f : ι → EReal) :
    max a (s.fold max a f) = s.fold max a f :=
  max_eq_right ((Finset.le_fold_max a).mpr (Or.inl le_rfl))

end Cert.Attention

end
-- ==== Proof.LibSmallWords.lean ====
/-
  Small nonnegative 32-bit index words.

  An index array a program builds from iota, constants and additions holds words BitVec.ofNat 32 m with m far below 2^31. Such a
  word read as a signed integer is m itself, so it is never signed-less-than zero (the test jnp's index normalisation makes before
  adding the axis length), a gather's clamp reads it back as m, two of them add without wrapping, and they are equal exactly when
  the numbers are.
-/
import Idealize.ShloMosaic.Lib.Affine
import Idealize.ShloMosaic.Lib.ValueIdx

namespace Cert.LibSmallWords

open Idealize.ShloMosaic

/-- Read as a signed integer, a word below 2^31 is its number. -/
theorem toInt_ofNat_small (m : ℕ) (h : m < 2 ^ 31) : (BitVec.ofNat 32 m).toInt = (m : Int) := by
  rw [BitVec.toInt_eq_toNat_cond, BitVec.toNat_ofNat]
  have hm : m % 2 ^ 32 = m := Nat.mod_eq_of_lt (by omega)
  rw [hm, if_pos (by omega)]

/-- So a gather reads it back as its number. -/
theorem toNat_toInt_small (m : ℕ) (h : m < 2 ^ 31) : (BitVec.ofNat 32 m).toInt.toNat = m := by
  rw [toInt_ofNat_small m h]; rfl

/-- It is not signed-less-than zero. -/
theorem not_slt_zero (m : ℕ) (h : m < 2 ^ 31) : IntOp.cmpi .slt (BitVec.ofNat 32 m) 0#32 = 0#1 := by
  apply ValueIdx.eq_zero_of_ne_one
  intro e
  have := IntOp.cmpi_slt.mp e
  rw [toInt_ofNat_small m h] at this
  simp at this
  omega

/-- Two such words add without wrapping. -/
theorem addi_ofNat (a b : ℕ) : IntOp.addi (BitVec.ofNat 32 a) (BitVec.ofNat 32 b) = BitVec.ofNat 32 (a + b) := by
  show BitVec.ofNat 32 a + BitVec.ofNat 32 b = _
  rw [BitVec.ofNat_add]

/-- They are equal words exactly when they are equal numbers. -/
theorem cmpi_eq_ofNat (a b : ℕ) (ha : a < 2 ^ 31) (hb : b < 2 ^ 31) :
    IntOp.cmpi .eq (BitVec.ofNat 32 a) (BitVec.ofNat 32 b) = 1#1 ↔ a = b := by
  rw [IntOp.cmpi_eq]
  constructor
  · intro e
    have := congrArg BitVec.toInt e
    rw [toInt_ofNat_small a ha, toInt_ofNat_small b hb] at this
    exact_mod_cast this
  · rintro rfl; rfl

end Cert.LibSmallWords
-- ==== Proof.MaskWords.lean ====
/-
  The causal mask as words. Both programs decide "key k is not after query q" by a signed 32-bit comparison of two position
  words built from iota: the kernel of (block number · 256 + row in the block) against the key's column, the reference of
  (row + 0) against the column. All positions are below 2048, far below 2^31, so each word read as a signed integer is its
  number, the sums and the product do not wrap, and the comparison's bit is 1 exactly when k ≤ q.
-/
import proofs.«104358_j47854525612275_2_alg».proof.Proof.LibSmallWords

namespace Cert.Attention

open Idealize.ShloMosaic

/-- Two position words below 2^31 compare signed-greater-or-equal exactly as their numbers do. -/
theorem cmpi_sge_ofNat (a k : ℕ) (ha : a < 2 ^ 31) (hk : k < 2 ^ 31) :
    IntOp.cmpi .sge (BitVec.ofNat 32 a) (BitVec.ofNat 32 k) = 1#1 ↔ k ≤ a := by
  rw [IntOp.cmpi_sge, Cert.LibSmallWords.toInt_ofNat_small a ha, Cert.LibSmallWords.toInt_ofNat_small k hk]
  exact Int.ofNat_le

/-- The product of two position words is the word of the product. -/
theorem muli_ofNat (a b : ℕ) : IntOp.muli (BitVec.ofNat 32 a) (BitVec.ofNat 32 b) = BitVec.ofNat 32 (a * b) := by
  show BitVec.ofNat 32 a * BitVec.ofNat 32 b = _
  rw [BitVec.ofNat_mul]

/-- A select on a comparison bit is an if-then-else on the proposition the bit encodes. -/
theorem select_of_iff {α : Type} (c : BitVec 1) (p : Prop) [Decidable p] (h : c = 1#1 ↔ p) (x y : α) :
    Scalar.select c x y = if p then x else y := by
  by_cases hp : p
  · rw [if_pos hp, h.mpr hp]; exact ValueIdx.select_one x y
  · rw [if_neg hp, ValueIdx.eq_zero_of_ne_one (fun e => hp (h.mp e))]; exact ValueIdx.select_zero x y

/-- The kernel's mask at row r of query block qi and key column k: the query's position is qi · 256 + r. -/
theorem kernel_mask_select {α : Type} (qi r k : ℕ) (hqi : qi < 8) (hr : r < 256) (hk : k < 2048) (x y : α) :
    Scalar.select (IntOp.cmpi .sge (IntOp.addi (Scalar.muli (BitVec.ofNat 32 qi) 256#32) (BitVec.ofNat 32 r)) (BitVec.ofNat 32 k)) x y
      = if k ≤ qi * 256 + r then x else y := by
  refine select_of_iff _ _ ?_ x y
  show IntOp.cmpi .sge (IntOp.addi (IntOp.muli (BitVec.ofNat 32 qi) (BitVec.ofNat 32 256)) (BitVec.ofNat 32 r)) (BitVec.ofNat 32 k) = 1#1 ↔ _
  rw [muli_ofNat, Cert.LibSmallWords.addi_ofNat]
  exact cmpi_sge_ofNat _ _ (by omega) (by omega)

/-- The reference's mask at query row q and key column k: a lower-triangular bit (row + 0 ≥ column selects true over
    false), which then selects the score over the fill. -/
theorem reference_mask_select {α : Type} (q k : ℕ) (hq : q < 2048) (hk : k < 2048) (x y : α) :
    Scalar.select (Scalar.select (IntOp.cmpi .sge (IntOp.addi (BitVec.ofNat 32 q) 0#32) (BitVec.ofNat 32 k)) (1#1 : BitVec 1) 0#1) x y
      = if k ≤ q then x else y := by
  have hbit : IntOp.cmpi .sge (IntOp.addi (BitVec.ofNat 32 q) 0#32) (BitVec.ofNat 32 k) = 1#1 ↔ k ≤ q := by
    show IntOp.cmpi .sge (IntOp.addi (BitVec.ofNat 32 q) (BitVec.ofNat 32 0)) (BitVec.ofNat 32 k) = 1#1 ↔ _
    rw [Cert.LibSmallWords.addi_ofNat, Nat.add_zero]
    exact cmpi_sge_ofNat _ _ (by omega) (by omega)
  rw [select_of_iff _ _ hbit (1#1 : BitVec 1) 0#1]
  by_cases h : k ≤ q
  · rw [if_pos h, if_pos h]; exact ValueIdx.select_one x y
  · rw [if_neg h, if_neg h]; exact ValueIdx.select_zero x y

end Cert.Attention
-- ==== Proof.ReferenceAttention.lean ====
/-
  The reference program computes the attention of the specification.

  Stage by stage, each read at an index through the generated read-at-an-index lemmas: the scaled and masked score, the
  row maximum (a fold of max over the key axis, taken once more against its own seed), the exponential, the row sum
  (zero plus a sum over the key axis), the quotient, and the product with the values. The quotient by √64 meets the
  specification's product with 1/8 in `div_sqrt_sixtyfour`; the lower-triangular bit meets `k ≤ q` in
  `reference_mask_select`.
-/
import proofs.«104358_j47854525612275_2_alg».proof.Proof.Gen.ReferenceIdeal.Read
import proofs.«104358_j47854525612275_2_alg».proof.Proof.AttentionSpec
import proofs.«104358_j47854525612275_2_alg».proof.Proof.MaskWords

noncomputable section

namespace Cert.Attention.Reference

open Idealize.ShloMosaic Idealize.ShloMosaic.ValueIdx Cert.ReferenceIdeal Cert.ReferenceIdeal.Gen Cert.ReferenceIdeal.Read Cert.Attention

variable (Q K V : (⟨S16x2048x64, .f32⟩ : BufTy).Contents (Elt Ideal))

/-- The left and right operand indices of the first product: query row q and key row k of batch b, feature d. -/
theorem lidx_v0 (b : Fin 16) (q k : Fin 2048) (d : Fin 64) : lidx_main_v0 (ix3 b q k) d = ix3 b q d :=
  funext fun a => by match a with | ⟨0, _⟩ => rfl | ⟨1, _⟩ => rfl | ⟨2, _⟩ => rfl
theorem ridx_v0 (b : Fin 16) (q k : Fin 2048) (d : Fin 64) : ridx_main_v0 (ix3 b q k) d = ix3 b k d :=
  funext fun a => by match a with | ⟨0, _⟩ => rfl | ⟨1, _⟩ => rfl | ⟨2, _⟩ => rfl

/-- A row's column of maxima, and of sums, broadcast back over the keys, is read at the row. -/
theorem idx_max_col (b : Fin 16) (q k : Fin 2048) : idx_main_v11 (idx_main_v12 (ix3 b q k)) = ix2 b q :=
  funext fun a => by match a with | ⟨0, _⟩ => rfl | ⟨1, _⟩ => rfl
theorem idx_sum_col (b : Fin 16) (q k : Fin 2048) : idx_main_v16 (idx_main_v17 (ix3 b q k)) = ix2 b q :=
  funext fun a => by match a with | ⟨0, _⟩ => rfl | ⟨1, _⟩ => rfl
/-- The row sum's k-th summand sits at (b, q, k). -/
theorem idx_sum (b : Fin 16) (q k : Fin 2048) : idx_main_v15 (ix2 b q) k = ix3 b q k :=
  funext fun a => by match a with | ⟨0, _⟩ => rfl | ⟨1, _⟩ => rfl | ⟨2, _⟩ => rfl

/-- The masked score. -/
theorem masked_eq (b : Fin 16) (q k : Fin 2048) :
    val_main_v7 (F := Ideal) Q K (ix3 b q k) = masked Q K b q k := by
  simp only [val_main_v7_apply, val_main_call1_v0_apply, val_main_v6_apply, val_main_v5_apply, val_main_call0_v4_apply,
    val_main_call0_v2_apply, val_main_call0_v0_apply, val_main_call0_v1_apply, val_main_call0_c_apply,
    val_main_call0_v3_apply, val_main_v4_apply, val_main_c_apply, val_main_call0_v5_apply, val_main_call0_c_0_apply,
    val_main_call1_v1_apply, val_main_cst_0_apply, val_main_v3_apply, val_main_v0_apply, val_main_v2_apply,
    val_main_v1_apply, val_main_cst_apply, lidx_v0, ridx_v0]
  refine (reference_mask_select q.val k.val q.isLt k.isLt _ _).trans ?_
  unfold masked score dotQK
  refine if_congr Iff.rfl ?_ rfl
  rw [Ideal.hostDivf_def, Ideal.hostUnary_sqrt_def]
  exact div_sqrt_sixtyfour _

/-- The row maximum: the reduce over the key axis is a fold of max from its seed, and the further maximum against the
    same seed changes nothing. -/
theorem rowMax_eq (b : Fin 16) (q : Fin 2048) :
    val_main_v10 (F := Ideal) Q K (ix2 b q) = rowMax Q K b q := by
  have hR : S16x2048x2048.Reduces [(2 : Fin S16x2048x2048.rank)] S16x2048 := by decide
  rw [val_main_v10_apply, val_main_v9_apply, val_main_cst_2_apply]
  unfold val_main_v8
  rw [Host.reduce_eq_fold_single FloatOps.maximumf _ _ reducesTo_S16x2048x2048_S16x2048_d2 hR h_S_ (ix2 b q)]
  refine (max_seed_fold _ _ _).trans ?_
  unfold rowMax
  refine congrArg (Finset.fold max _ · Finset.univ) (funext fun k => ?_)
  have e : hR.lift (ix2 b q) k = ix3 b q k :=
    funext fun a => Fin.ext (by match a with | ⟨0, _⟩ => rfl | ⟨1, _⟩ => rfl | ⟨2, _⟩ => rfl)
  show val_main_v7 (F := Ideal) Q K (hR.lift (ix2 b q) k) = _
  rw [e]
  exact masked_eq Q K b q k

/-- The exponential of the masked score less the row maximum. -/
theorem expo_eq (b : Fin 16) (q k : Fin 2048) :
    val_main_v14 (F := Ideal) Q K (ix3 b q k) = expo Q K b q k := by
  rw [val_main_v14_apply, val_main_v13_apply, masked_eq, val_main_v12_apply, val_main_v11_apply, idx_max_col, rowMax_eq,
    Ideal.hostUnary_exp_def]
  rfl

/-- The row sum. -/
theorem denom_eq (b : Fin 16) (q : Fin 2048) :
    val_main_v15 (F := Ideal) Q K (ix2 b q) = denom Q K b q := by
  rw [val_main_v15_apply, val_main_cst_3_apply]
  show Ideal.ofBits .f32 0x00000000#32 + _ = _
  rw [Ideal.ofBits_zero_f32, zero_add]
  unfold denom
  exact Finset.sum_congr rfl fun k _ => by rw [idx_sum, expo_eq]

/-- The weight. -/
theorem weight_eq (b : Fin 16) (q k : Fin 2048) :
    val_main_v18 (F := Ideal) Q K (ix3 b q k) = weight Q K b q k := by
  rw [val_main_v18_apply, expo_eq, val_main_v17_apply, val_main_v16_apply, idx_sum_col, denom_eq, Ideal.hostDivf_def]
  rfl

/-- The weights array. -/
theorem weights_eq : val_main_v18 (F := Ideal) Q K = weights Q K := by
  funext i
  obtain ⟨b, q, k, rfl⟩ : ∃ (b : Fin 16) (q k : Fin 2048), i = ix3 b q k := ⟨i 0, i 1, i 2, eq_ix3 i⟩
  exact weight_eq Q K b q k

/-- The output array. -/
theorem output_eq : val_main_v19 (F := Ideal) Q K V = output Q K V := by
  funext i
  obtain ⟨b, q, d, rfl⟩ : ∃ (b : Fin 16) (q : Fin 2048) (d : Fin 64), i = ix3 b q d := ⟨i 0, i 1, i 2, eq_ix3 i⟩
  rw [val_main_v19_apply]
  unfold output
  refine Finset.sum_congr rfl fun k _ => ?_
  have el : lidx_main_v19 (ix3 b q d) k = ix3 b q k :=
    funext fun a => by match a with | ⟨0, _⟩ => rfl | ⟨1, _⟩ => rfl | ⟨2, _⟩ => rfl
  have er : ridx_main_v19 (ix3 b q d) k = ix3 b k d :=
    funext fun a => by match a with | ⟨0, _⟩ => rfl | ⟨1, _⟩ => rfl | ⟨2, _⟩ => rfl
  rw [el, er, weight_eq]

end Cert.Attention.Reference

end
-- ==== Proof.LibColumnLayouts.lean ====
import Idealize.ShloMosaic.Lib.Pipeline.Value
import Idealize.ShloMosaic.Lib.ValueIdx

/-
  Layout changes around a row-wise reduction, read at an index (for any element type and any extents):

  * slab_as_rows   — a [1, n, 1, w] slab read as an [n, w] matrix: entry (r, d) is the slab's (0, r, 0, d);
  * rows_as_slab   — an [n, w] matrix read as a [1, n, 1, w] slab;
  * vec_as_column  — a length-n vector read as an [n, 1] column (what keeping the reduced axis does to a row-wise
                     reduction's result);
  * column_spread  — an [n, 1] column spread over b columns: entry (r, t) is the column's (r, 0).
-/

namespace Cert.LibColumnLayouts

open Idealize.ShloMosaic Idealize.ShloMosaic.ValueIdx

variable {α : Type}

/-- A [1, n, 1, w] slab read as [n, w]: entry (r, d) is the slab's (0, r, 0, d). -/
theorem slab_as_rows {n w : ℕ} (x : (⟨4, ![1, n, 1, w]⟩ : Shape).Idx → α)
    (h : (⟨4, ![1, n, 1, w]⟩ : Shape).ShapeCasts ⟨2, ![n, w]⟩) (r : Fin n) (d : Fin w) :
    shapeCast ⟨2, ![n, w]⟩ x h (ix2 r d) = x (ix4 (0 : Fin 1) r (0 : Fin 1) d) :=
  shapeCast_apply x h _ _ (by
    rw [Shape.rowMajor_val_four, Shape.rowMajor_val_two]
    show ((0 * n + r.val) * 1 + 0) * w + d.val = r.val * w + d.val
    rw [Nat.zero_mul, Nat.zero_add, Nat.mul_one, Nat.add_zero])

/-- [n, w] rows read as a [1, n, 1, w] slab: entry (u, r, v, d) is the matrix's (r, d). -/
theorem rows_as_slab {n w : ℕ} (x : (⟨2, ![n, w]⟩ : Shape).Idx → α)
    (h : (⟨2, ![n, w]⟩ : Shape).ShapeCasts ⟨4, ![1, n, 1, w]⟩) (u : Fin 1) (r : Fin n) (v : Fin 1) (d : Fin w) :
    shapeCast ⟨4, ![1, n, 1, w]⟩ x h (ix4 u r v d) = x (ix2 r d) :=
  shapeCast_apply x h _ _ (by
    rw [Shape.rowMajor_val_four, Shape.rowMajor_val_two]
    show r.val * w + d.val = ((u.val * n + r.val) * 1 + v.val) * w + d.val
    have hu : u.val = 0 := by omega
    have hv : v.val = 0 := by omega
    rw [hu, hv, Nat.zero_mul, Nat.zero_add, Nat.mul_one, Nat.add_zero])

/-- A length-n vector read as an [n, 1] column: entry (r, u) is the vector's r. -/
theorem vec_as_column {n : ℕ} (x : (⟨1, ![n]⟩ : Shape).Idx → α) (h : (⟨1, ![n]⟩ : Shape).ShapeCasts ⟨2, ![n, 1]⟩)
    (r : Fin n) (u : Fin 1) : shapeCast ⟨2, ![n, 1]⟩ x h (ix2 r u) = x (ix1 r) :=
  shapeCast_apply x h _ _ (by
    rw [Shape.rowMajor_val_two, Shape.rowMajor_val_one]
    show r.val = r.val * 1 + u.val
    have hu : u.val = 0 := by omega
    rw [hu, Nat.mul_one, Nat.add_zero])

/-- An [n, 1] column spread over b columns (n ≠ 1): entry (r, t) is the column's (r, 0). -/
theorem column_spread {n b : ℕ} (hb : b ≠ 1) (x : (⟨2, ![n, 1]⟩ : Shape).Idx → α) (h : (⟨2, ![n, 1]⟩ : Shape).Broadcasts ⟨2, ![n, b]⟩)
    (hn : n ≠ 1) (r : Fin n) (t : Fin b) : broadcastTo ⟨2, ![n, b]⟩ x h (ix2 r t) = x (ix2 r (0 : Fin 1)) := by
  refine broadcastTo_apply x h (ix2 r t) (ix2 r (0 : Fin 1)) fun a => ?_
  match a with
  | ⟨0, _⟩ =>
    show r.val = if n = 1 then 0 else r.val
    rw [if_neg hn]
  | ⟨1, _⟩ => rfl

end Cert.LibColumnLayouts
-- ==== Proof.AttentionBlock.lean ====
/-
  One grid point's block of the kernel, read at an index.

  At grid point (b, qi) the body loads a [1, 256, 64] block of queries (rows qi·256 … qi·256+255 of batch b) and the
  whole [1, 2048, 64] keys and values of batch b, and stores a [256, 2048] block of weights and a [256, 64] block of
  outputs. The stored weights are written here as four stages — the scaled scores, the masked scores, the exponentials
  less the row maximum, the quotient by the row sum — which the body's payload IS (`pay1_eq`, by unfolding), and each
  stage is read at (r, k): the matrix product as a sum over the 64 features, the mask through `kernel_mask_select`,
  the row maximum as a fold of max over the 2048 keys, the row sum as a sum over them; a row's maximum or sum, kept as
  a [256, 1] column and spread over the keys, is read back at the row.
-/
import proofs.«104358_j47854525612275_2_alg».proof.Proof.Gen.KernelIdeal.Skeleton
import proofs.«104358_j47854525612275_2_alg».proof.Proof.AttentionSpec
import proofs.«104358_j47854525612275_2_alg».proof.Proof.MaskWords
import proofs.«104358_j47854525612275_2_alg».proof.Proof.LibColumnLayouts
import Idealize.ShloMosaic.Lib.ValueLayout
import Idealize.ShloMosaic.Lib.Pipeline.Value
import Idealize.ShloMosaic.PureOps.Ideal.Laws

noncomputable section

namespace Cert.Attention.Block

open Idealize.ShloMosaic Idealize.ShloMosaic.ValueIdx Cert.KernelIdeal Cert.KernelIdeal.Gen Cert.Attention

variable (i : grid0.Coords) (x0 : Vec Ideal S1x256x64 .bf16) (x1 x2 : Vec Ideal S1x2048x64 .bf16)

/-- The scaled scores of the block: the product of the query block with the keys, times 1/8. -/
def scoresB : FVec Ideal S256x2048 .f32 :=
  mulf (matmul dot_S256x64_S2048x64_S256x2048_1_1_0_0_n_n none
      (shapeCast S256x64 x0 shapeCasts_S1x256x64_S256x64 : FVec Ideal S256x64 .bf16)
      (shapeCast S2048x64 x1 shapeCasts_S1x2048x64_S2048x64 : FVec Ideal S2048x64 .bf16)
      (constant S256x2048 .f32 0x00000000#32))
    (broadcast S256x2048 (Scalar.ofBits .f32 0x3E000000#32 : Ideal .f32))

/-- The masked scores: where the key's column is after the query's position (block number · 256 + row), the fill. -/
def maskedB : FVec Ideal S256x2048 .f32 :=
  select (cmpi .sge (addi (broadcast S256x2048 (Scalar.muli (BitVec.ofNat 32 (i 1).val) 256#32))
      (iota .tc S256x2048 32 [0] iota_S256x2048_d0_w32)) (iota .tc S256x2048 32 [1] iota_S256x2048_d1_w32))
    (scoresB x0 x1) (broadcast S256x2048 (Scalar.ofBits .f32 0xCE6E6B28#32 : Ideal .f32))

/-- The exponentials of the masked scores less their row's maximum. -/
def expB : FVec Ideal S256x2048 .f32 :=
  exp (subf (maskedB i x0 x1) (broadcastTo S256x2048 (shapeCast S256x1
    (multiReduction .maximumf [1] S256 (maskedB i x0 x1) 0xFF800000#32 reduces_S256x2048_S256 (.inl rfl) rfl)
    shapeCasts_S256_S256x1) broadcasts_S256x1_S256x2048))

/-- The weights of the block: the exponentials over their row's sum. -/
def weightB : FVec Ideal S256x2048 .f32 :=
  divf (expB i x0 x1) (broadcastTo S256x2048 (shapeCast S256x1
    (multiReduction .add [1] S256 (expB i x0 x1) 0x00000000#32 reduces_S256x2048_S256 (.inl rfl) rfl)
    shapeCasts_S256_S256x1) broadcasts_S256x1_S256x2048)

/-- The body's weights payload is these four stages. -/
theorem pay1_eq : k0_pay1 (F := Ideal) i x0 x1 = weightB i x0 x1 := rfl

/-! ## Each stage at an index -/

/-- The first product's operand indices on their kept axes: the queries' row is the scores' row, the keys' row the
    scores' column. -/
theorem lhs1_row (j : S256x2048.Idx) (q : dot_S256x64_S2048x64_S256x2048_1_1_0_0_n_n.contr.Idx) : (dot_S256x64_S2048x64_S256x2048_1_1_0_0_n_n.lhsIdx j q 0).val = (j 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
theorem rhs1_row (j : S256x2048.Idx) (q : dot_S256x64_S2048x64_S256x2048_1_1_0_0_n_n.contr.Idx) : (dot_S256x64_S2048x64_S256x2048_1_1_0_0_n_n.rhsIdx j q 0).val = (j 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl

/-- The scores at (r, k): the sum over the 64 features of query row r times key row k, times 1/8. -/
theorem scoresB_apply (r : Fin 256) (k : Fin 2048) :
    scoresB x0 x1 (ix2 r k) = (∑ d : Fin 64, x0 (ix3 (0 : Fin 1) r d) * x1 (ix3 (0 : Fin 1) k d)) * scaleW := by
  unfold scoresB
  rw [mulf_apply, broadcast_apply]
  refine congrArg (· * scaleW) ?_
  simp only [matmul]
  rw [Ideal.matmul_constant_zero_apply, ← Equiv.sum_comp (contrEquiv1 dot_S256x64_S2048x64_S256x2048_1_1_0_0_n_n 64 rfl rfl).symm]
  refine Finset.sum_congr rfl fun d _ => ?_
  have hd := contrEquiv1_symm_val dot_S256x64_S2048x64_S256x2048_1_1_0_0_n_n 64 rfl rfl d
  have el : dot_S256x64_S2048x64_S256x2048_1_1_0_0_n_n.lhsIdx (ix2 r k) ((contrEquiv1 dot_S256x64_S2048x64_S256x2048_1_1_0_0_n_n 64 rfl rfl).symm d) = ix2 r d := funext fun a => Fin.ext (by
    match a with
    | ⟨0, _⟩ => exact lhs1_row _ _
    | ⟨1, _⟩ => exact (dot_S256x64_S2048x64_S256x2048_1_1_0_0_n_n.lhsIdx_val_of_single rfl _ _).trans hd)
  have er : dot_S256x64_S2048x64_S256x2048_1_1_0_0_n_n.rhsIdx (ix2 r k) ((contrEquiv1 dot_S256x64_S2048x64_S256x2048_1_1_0_0_n_n 64 rfl rfl).symm d) = ix2 k d := funext fun a => Fin.ext (by
    match a with
    | ⟨0, _⟩ => exact rhs1_row _ _
    | ⟨1, _⟩ => exact (dot_S256x64_S2048x64_S256x2048_1_1_0_0_n_n.rhsIdx_val_of_single rfl _ _).trans hd)
  rw [el, er, shapeCast_1ab_ab_apply, shapeCast_1ab_ab_apply]

/-- The masked scores at (r, k): the score where k ≤ block number · 256 + r, the fill elsewhere. -/
theorem maskedB_apply (r : Fin 256) (k : Fin 2048) :
    maskedB i x0 x1 (ix2 r k) = if k.val ≤ (i 1).val * 256 + r.val then scoresB x0 x1 (ix2 r k) else fillW := by
  unfold maskedB
  rw [select_apply, broadcast_apply]
  show Scalar.select (IntOp.cmpi .sge (IntOp.addi (Scalar.muli (BitVec.ofNat 32 (i 1).val) 256#32)
    (iota .tc S256x2048 32 [0] iota_S256x2048_d0_w32 (ix2 r k))) (iota .tc S256x2048 32 [1] iota_S256x2048_d1_w32 (ix2 r k))) _ _ = _
  rw [iota_single_apply, iota_single_apply]
  exact kernel_mask_select (i 1).val r.val k.val (i 1).isLt r.isLt k.isLt _ _

/-- A row-wise maximum over the keys, at row r: the fold of max from the seed over the row's 2048 entries. -/
theorem rowMaxB (M : FVec Ideal S256x2048 .f32) (r : Fin 256) :
    multiReduction .maximumf [1] S256 M 0xFF800000#32 reduces_S256x2048_S256 (.inl rfl) rfl (ix1 r)
      = (Finset.univ : Finset (Fin 2048)).fold max seedW (fun k => M (ix2 r k)) := by
  refine (Ideal.multiReduction_maximumf_single M 0xFF800000#32 reduces_S256x2048_S256 (.inl rfl) rfl (ix1 r)).trans ?_
  refine congrArg (Finset.fold max _ · Finset.univ) (funext fun k => ?_)
  exact congrArg M (funext fun a => Fin.ext (by match a with | ⟨0, _⟩ => rfl | ⟨1, _⟩ => rfl))

/-- A row-wise sum over the keys, at row r. -/
theorem rowSumB (M : FVec Ideal S256x2048 .f32) (r : Fin 256) :
    multiReduction .add [1] S256 M 0x00000000#32 reduces_S256x2048_S256 (.inl rfl) rfl (ix1 r) = ∑ k : Fin 2048, M (ix2 r k) := by
  refine (Ideal.multiReduction_add_single M 0x00000000#32 reduces_S256x2048_S256 (.inl rfl) rfl (ix1 r)).trans ?_
  exact Finset.sum_congr rfl fun k _ =>
    congrArg M (funext fun a => Fin.ext (by match a with | ⟨0, _⟩ => rfl | ⟨1, _⟩ => rfl))

/-- A per-row value kept as a [256, 1] column and spread over the 2048 keys is, at (r, k), the row's value. -/
theorem columnB (v : FVec Ideal S256 .f32) (r : Fin 256) (k : Fin 2048) :
    broadcastTo S256x2048 (shapeCast S256x1 v shapeCasts_S256_S256x1) broadcasts_S256x1_S256x2048 (ix2 r k) = v (ix1 r) :=
  (Cert.LibColumnLayouts.column_spread (by decide) _ _ (by decide) r k).trans
    (Cert.LibColumnLayouts.vec_as_column v _ r (0 : Fin 1))

/-- The exponentials at (r, k). -/
theorem expB_apply (r : Fin 256) (k : Fin 2048) :
    expB i x0 x1 (ix2 r k) = Ideal.exp (maskedB i x0 x1 (ix2 r k)
      - (Finset.univ : Finset (Fin 2048)).fold max seedW (fun k' => maskedB i x0 x1 (ix2 r k'))) := by
  unfold expB
  show Ideal.exp (maskedB i x0 x1 (ix2 r k) - broadcastTo S256x2048 (shapeCast S256x1 _ shapeCasts_S256_S256x1) broadcasts_S256x1_S256x2048 (ix2 r k)) = _
  rw [columnB, rowMaxB]

/-- The weights at (r, k). -/
theorem weightB_apply (r : Fin 256) (k : Fin 2048) :
    weightB i x0 x1 (ix2 r k) = Ideal.div (expB i x0 x1 (ix2 r k)) (∑ k' : Fin 2048, expB i x0 x1 (ix2 r k')) := by
  unfold weightB
  show Ideal.div (expB i x0 x1 (ix2 r k)) (broadcastTo S256x2048 (shapeCast S256x1 _ shapeCasts_S256_S256x1) broadcasts_S256x1_S256x2048 (ix2 r k)) = _
  rw [columnB, rowSumB]

/-! ## The block is the specification's rows qi·256 … qi·256+255 of batch b -/

/-- Row r of query block qi is row qi · 256 + r of the array. -/
def qrow (qi : Fin 8) (r : Fin 256) : Fin 2048 := ⟨qi.val * 256 + r.val, by omega⟩

variable (Q K V : SArg.Idx → EReal) (b : Fin 16) (qi : Fin 8) (hqi : (i 1).val = qi.val)
  (hx0 : ∀ (r : Fin 256) (d : Fin 64), x0 (ix3 (0 : Fin 1) r d) = Q (ix3 b (qrow qi r) d))
  (hx1 : ∀ (k : Fin 2048) (d : Fin 64), x1 (ix3 (0 : Fin 1) k d) = K (ix3 b k d))
  (hx2 : ∀ (k : Fin 2048) (d : Fin 64), x2 (ix3 (0 : Fin 1) k d) = V (ix3 b k d))

include hx0 hx1 in
theorem scoresB_spec (r : Fin 256) (k : Fin 2048) : scoresB x0 x1 (ix2 r k) = score Q K b (qrow qi r) k := by
  rw [scoresB_apply]
  unfold score dotQK
  exact congrArg (· * scaleW) (Finset.sum_congr rfl fun d _ => by rw [hx0, hx1])

include hqi hx0 hx1 in
theorem maskedB_spec (r : Fin 256) (k : Fin 2048) : maskedB i x0 x1 (ix2 r k) = masked Q K b (qrow qi r) k := by
  rw [maskedB_apply, scoresB_spec x0 x1 Q K b qi hx0 hx1, hqi]
  rfl

include hqi hx0 hx1 in
theorem expB_spec (r : Fin 256) (k : Fin 2048) : expB i x0 x1 (ix2 r k) = expo Q K b (qrow qi r) k := by
  rw [expB_apply, maskedB_spec i x0 x1 Q K b qi hqi hx0 hx1]
  unfold expo rowMax
  refine congrArg (fun f => Ideal.exp (_ - Finset.fold max seedW f Finset.univ)) (funext fun k' => ?_)
  exact maskedB_spec i x0 x1 Q K b qi hqi hx0 hx1 r k'

include hqi hx0 hx1 in
theorem weightB_spec (r : Fin 256) (k : Fin 2048) : weightB i x0 x1 (ix2 r k) = weight Q K b (qrow qi r) k := by
  rw [weightB_apply, expB_spec i x0 x1 Q K b qi hqi hx0 hx1]
  unfold weight denom
  exact congrArg (Ideal.div _) (Finset.sum_congr rfl fun k' _ => expB_spec i x0 x1 Q K b qi hqi hx0 hx1 r k')

/-! ## The two stored payloads at an index -/

/-- The second product's operand indices on their kept axes: the weights' row is the output's row, the values' column
    the output's column. -/
theorem lhs2_row (j : S256x64.Idx) (q : dot_S256x2048_S2048x64_S256x64_1_0_0_1_n_n.contr.Idx) : (dot_S256x2048_S2048x64_S256x64_1_0_0_1_n_n.lhsIdx j q 0).val = (j 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem rhs2_col (j : S256x64.Idx) (q : dot_S256x2048_S2048x64_S256x64_1_0_0_1_n_n.contr.Idx) : (dot_S256x2048_S2048x64_S256x64_1_0_0_1_n_n.rhsIdx j q 1).val = (j 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

include hqi hx0 hx1 in
/-- The stored weights block at (u, r, k) is the specification's weight of key k for query row qi · 256 + r. -/
theorem pay2_apply (u : Fin 1) (r : Fin 256) (k : Fin 2048) :
    k0_pay2 (F := Ideal) i x0 x1 (ix3 u r k) = weight Q K b (qrow qi r) k := by
  show shapeCast S1x256x2048 (k0_pay1 (F := Ideal) i x0 x1) shapeCasts_S256x2048_S1x256x2048 (ix3 u r k) = _
  rw [shapeCast_ab_1ab_apply, pay1_eq]
  exact weightB_spec i x0 x1 Q K b qi hqi hx0 hx1 r k

include hqi hx0 hx1 hx2 in
/-- The stored output block at (u, r, d) is the weighted sum of the value rows for query row qi · 256 + r. -/
theorem pay3_apply (u : Fin 1) (r : Fin 256) (d : Fin 64) :
    k0_pay3 (F := Ideal) i x0 x1 x2 (ix3 u r d) = ∑ k : Fin 2048, weight Q K b (qrow qi r) k * V (ix3 b k d) := by
  show shapeCast S1x256x64 (matmul dot_S256x2048_S2048x64_S256x64_1_0_0_1_n_n none
    (truncf .bf16 (k0_pay1 (F := Ideal) i x0 x1) bitsLt_bf16_f32 : FVec Ideal S256x2048 .bf16)
    (shapeCast S2048x64 x2 shapeCasts_S1x2048x64_S2048x64 : FVec Ideal S2048x64 .bf16)
    (constant S256x64 .f32 0x00000000#32)) shapeCasts_S256x64_S1x256x64 (ix3 u r d) = _
  rw [shapeCast_ab_1ab_apply]
  simp only [matmul]
  rw [Ideal.matmul_constant_zero_apply, ← Equiv.sum_comp (contrEquiv1 dot_S256x2048_S2048x64_S256x64_1_0_0_1_n_n 2048 rfl rfl).symm]
  refine Finset.sum_congr rfl fun k _ => ?_
  have hk := contrEquiv1_symm_val dot_S256x2048_S2048x64_S256x64_1_0_0_1_n_n 2048 rfl rfl k
  have el : dot_S256x2048_S2048x64_S256x64_1_0_0_1_n_n.lhsIdx (ix2 r d) ((contrEquiv1 dot_S256x2048_S2048x64_S256x64_1_0_0_1_n_n 2048 rfl rfl).symm k) = ix2 r k := funext fun a => Fin.ext (by
    match a with
    | ⟨0, _⟩ => exact lhs2_row _ _
    | ⟨1, _⟩ => exact (dot_S256x2048_S2048x64_S256x64_1_0_0_1_n_n.lhsIdx_val_of_single rfl _ _).trans hk)
  have er : dot_S256x2048_S2048x64_S256x64_1_0_0_1_n_n.rhsIdx (ix2 r d) ((contrEquiv1 dot_S256x2048_S2048x64_S256x64_1_0_0_1_n_n 2048 rfl rfl).symm k) = ix2 k d := funext fun a => Fin.ext (by
    match a with
    | ⟨0, _⟩ => exact (dot_S256x2048_S2048x64_S256x64_1_0_0_1_n_n.rhsIdx_val_of_single rfl _ _).trans hk
    | ⟨1, _⟩ => exact rhs2_col _ _)
  rw [el, er, truncf_apply, shapeCast_1ab_ab_apply, pay1_eq, weightB_spec i x0 x1 Q K b qi hqi hx0 hx1, hx2]

end Cert.Attention.Block

end
-- ==== Proof.KernelAttention.lean ====
/-
  The idealized kernel's two result arrays after its run are the specification's output and weights of the argument
  arrays.

  The grid has 16 · 8 points (b, qi). Point (b, qi) reads rows qi·256 … qi·256+255 of batch b of the queries and all of
  batch b of the keys and values, and writes back rows qi·256 … qi·256+255 of batch b of both results. Every block it
  writes is the restriction of ONE whole-array function (`output`, `weights`) to its rows, the blocks tile the arrays,
  so after the run each array IS that function. The arrays the region reads are the arguments after a change of float
  format, which is the identity on the extended reals.
-/
import proofs.«104358_j47854525612275_2_alg».proof.Proof.FrameKernelIdeal
import proofs.«104358_j47854525612275_2_alg».proof.Proof.AttentionBlock
import Idealize.ShloMosaic.Lib.Pipeline.Value
import Idealize.ShloMosaic.Lib.StableHlo.Run

set_option maxRecDepth 16384

noncomputable section

namespace Cert.KernelIdeal.Attn

open Cert.KernelIdeal Cert.KernelIdeal.Gen Cert.KernelIdeal.GenP Idealize.ShloMosaic Idealize.ShloMosaic.TcCoe Idealize.SL.Sem
open Idealize.ShloMosaic.ValueIdx Cert.Attention Cert.Attention.Block
open Idealize.ShloMosaic.Pipeline (Dat)

variable (m : (ℓ : Loc nD τ sig) → Buf (Elt Ideal) ℓ) (ρ : Dev nD → PrngReg)

/-! ## The arrays the region reads -/

/-- The queries, keys and values as the region finds them: the arguments, their change of format being the identity. -/
theorem V_queries (c : Dev nD) : (V m c main_v0 : SArg.Idx → EReal) = (m ((c : Thread nD τ).loc main_arg0) : SArg.Idx → EReal) := by
  dsimp only [V, hostOps0]; after_results; rfl
theorem V_keys (c : Dev nD) : (V m c main_v1 : SArg.Idx → EReal) = (m ((c : Thread nD τ).loc main_arg1) : SArg.Idx → EReal) := by
  dsimp only [V, hostOps0]; after_results; rfl
theorem V_values (c : Dev nD) : (V m c main_v2 : SArg.Idx → EReal) = (m ((c : Thread nD τ).loc main_arg2) : SArg.Idx → EReal) := by
  dsimp only [V, hostOps0]; after_results; rfl

/-! ## The index maps over the grid -/

theorem hz3 : (![0, 0, 0] : Fin 3 → Nat) = fun _ => 0 := funext fun a => by fin_cases a <;> rfl

/-- The printed index maps, decided over the 128 grid points: the query block and both result blocks sit at
    (b, qi, 0), the keys and values at (b, 0, 0). -/
theorem idx_facts : ∀ t : Fin cfg0.N,
    win0_0.index t (0 : Fin 3) = (grid0.coords t 0).val ∧ win0_0.index t (1 : Fin 3) = (grid0.coords t 1).val ∧ win0_0.index t (2 : Fin 3) = 0
    ∧ win0_1.index t (0 : Fin 3) = (grid0.coords t 0).val ∧ win0_1.index t (1 : Fin 3) = 0 ∧ win0_1.index t (2 : Fin 3) = 0
    ∧ win0_2.index t (0 : Fin 3) = (grid0.coords t 0).val ∧ win0_2.index t (1 : Fin 3) = 0 ∧ win0_2.index t (2 : Fin 3) = 0
    ∧ win0_3.index t (0 : Fin 3) = (grid0.coords t 0).val ∧ win0_3.index t (1 : Fin 3) = (grid0.coords t 1).val ∧ win0_3.index t (2 : Fin 3) = 0
    ∧ win0_4.index t (0 : Fin 3) = (grid0.coords t 0).val ∧ win0_4.index t (1 : Fin 3) = (grid0.coords t 1).val ∧ win0_4.index t (2 : Fin 3) = 0 :=
  (by decide +kernel : ∀ t : Fin grid0.N, _)

/-- Every (batch, query block) is some grid point's. -/
theorem idx_onto : ∀ (b : Fin 16) (qi : Fin 8), ∃ t : Fin cfg0.N, (grid0.coords t 0).val = b.val ∧ (grid0.coords t 1).val = qi.val :=
  (by decide +kernel : ∀ (b : Fin 16) (qi : Fin 8), ∃ t : Fin grid0.N, (grid0.coords t 0).val = b.val ∧ (grid0.coords t 1).val = qi.val)

/-! ## What a point reads -/

section point
variable (c : Dev nD) (t : Fin cfg0.N)

/-- The point's batch and query block, as numbers of the arrays' extents. -/
def bat : Fin 16 := ⟨(grid0.coords t 0).val, (grid0.coords t 0).isLt⟩
def qblk : Fin 8 := ⟨(grid0.coords t 1).val, (grid0.coords t 1).isLt⟩

/-- The query block at the point: rows qi·256 … of batch b. -/
theorem queries_block (r : Fin 256) (d : Fin 64) :
    iblk m c 0 t (ix3 (0 : Fin 1) r d) = (V m c main_v0 : SArg.Idx → EReal) (ix3 (bat t) (qrow (qblk t) r) d) := by
  obtain ⟨e0, e1, e2, -⟩ := idx_facts t
  show (V m c main_v0 : SArg.Idx → EReal) (((cfg0.win 0).blk t).view.emb (ix3 (0 : Fin 1) r d)) = _
  refine congrArg (V m c main_v0 : SArg.Idx → EReal) (funext fun a => Fin.ext ?_)
  match a with
  | ⟨0, _⟩ => show win0_0.index t (0 : Fin 3) * 1 + 1 * 0 = (grid0.coords t 0).val; omega
  | ⟨1, _⟩ => show win0_0.index t (1 : Fin 3) * 256 + 1 * r.val = (grid0.coords t 1).val * 256 + r.val; omega
  | ⟨2, _⟩ => show win0_0.index t (2 : Fin 3) * 64 + 1 * d.val = d.val; omega

/-- The keys at the point: all of batch b. -/
theorem keys_block (k : Fin 2048) (d : Fin 64) :
    iblk m c 1 t (ix3 (0 : Fin 1) k d) = (V m c main_v1 : SArg.Idx → EReal) (ix3 (bat t) k d) := by
  obtain ⟨-, -, -, e0, e1, e2, -⟩ := idx_facts t
  show (V m c main_v1 : SArg.Idx → EReal) (((cfg0.win 1).blk t).view.emb (ix3 (0 : Fin 1) k d)) = _
  refine congrArg (V m c main_v1 : SArg.Idx → EReal) (funext fun a => Fin.ext ?_)
  match a with
  | ⟨0, _⟩ => show win0_1.index t (0 : Fin 3) * 1 + 1 * 0 = (grid0.coords t 0).val; omega
  | ⟨1, _⟩ => show win0_1.index t (1 : Fin 3) * 2048 + 1 * k.val = k.val; omega
  | ⟨2, _⟩ => show win0_1.index t (2 : Fin 3) * 64 + 1 * d.val = d.val; omega

/-- The values at the point: all of batch b. -/
theorem values_block (k : Fin 2048) (d : Fin 64) :
    iblk m c 2 t (ix3 (0 : Fin 1) k d) = (V m c main_v2 : SArg.Idx → EReal) (ix3 (bat t) k d) := by
  obtain ⟨-, -, -, -, -, -, e0, e1, e2, -⟩ := idx_facts t
  show (V m c main_v2 : SArg.Idx → EReal) (((cfg0.win 2).blk t).view.emb (ix3 (0 : Fin 1) k d)) = _
  refine congrArg (V m c main_v2 : SArg.Idx → EReal) (funext fun a => Fin.ext ?_)
  match a with
  | ⟨0, _⟩ => show win0_2.index t (0 : Fin 3) * 1 + 1 * 0 = (grid0.coords t 0).val; omega
  | ⟨1, _⟩ => show win0_2.index t (1 : Fin 3) * 2048 + 1 * k.val = k.val; omega
  | ⟨2, _⟩ => show win0_2.index t (2 : Fin 3) * 64 + 1 * d.val = d.val; omega

/-! ## What a point writes back -/

/-- The weights block point t writes back is block t of the specification's weights. -/
theorem weights_flushed :
    (dats m 0 c).flushed 4 t = ((cfg0.win 4).blk t).view.read (Elt Ideal)
      (weights (V m c main_v0 : SArg.Idx → EReal) (V m c main_v1 : SArg.Idx → EReal)) := by
  show (cfg0.win 4).cut (grid0.coords t) ((dats m 0 c).after 4 t) = _
  rw [after0_4]
  unfold out0_4
  rw [View.canon_unit_zero hz3]
  simp only [View.ld_unit_zero (S := S1x256x64) hz3, View.ld_unit_zero (S := S1x2048x64) hz3]
  obtain ⟨-, -, -, -, -, -, -, -, -, -, -, -, e0, e1, e2⟩ := idx_facts t
  refine funext fun (j : S1x256x2048.Idx) => ?_
  obtain ⟨u, r, k, rfl⟩ : ∃ (u : Fin 1) (r : Fin 256) (k : Fin 2048), j = ix3 u r k := ⟨j 0, j 1, j 2, eq_ix3 j⟩
  show k0_pay2 (F := Ideal) (grid0.coords t) (iblk m c 0 t) (iblk m c 1 t) (ix3 u r k)
    = weights (V m c main_v0 : SArg.Idx → EReal) (V m c main_v1 : SArg.Idx → EReal) (((cfg0.win 4).blk t).view.emb (ix3 u r k))
  refine (pay2_apply (grid0.coords t) (iblk m c 0 t) (iblk m c 1 t) (V m c main_v0 : SArg.Idx → EReal) (V m c main_v1 : SArg.Idx → EReal)
    (bat t) (qblk t) rfl (queries_block m c t) (keys_block m c t) u r k).trans ?_
  have he : ((cfg0.win 4).blk t).view.emb (ix3 u r k) = ix3 (bat t) (qrow (qblk t) r) k := funext fun a => Fin.ext (by
    have hu := u.isLt
    match a with
    | ⟨0, _⟩ => show win0_4.index t (0 : Fin 3) * 1 + 1 * u.val = (grid0.coords t 0).val; omega
    | ⟨1, _⟩ => show win0_4.index t (1 : Fin 3) * 256 + 1 * r.val = (grid0.coords t 1).val * 256 + r.val; omega
    | ⟨2, _⟩ => show win0_4.index t (2 : Fin 3) * 2048 + 1 * k.val = k.val; omega)
  rw [he]
  rfl

/-- The output block point t writes back is block t of the specification's output. -/
theorem output_flushed :
    (dats m 0 c).flushed 3 t = ((cfg0.win 3).blk t).view.read (Elt Ideal)
      (output (V m c main_v0 : SArg.Idx → EReal) (V m c main_v1 : SArg.Idx → EReal) (V m c main_v2 : SArg.Idx → EReal)) := by
  show (cfg0.win 3).cut (grid0.coords t) ((dats m 0 c).after 3 t) = _
  rw [after0_3]
  unfold out0_3
  rw [View.canon_unit_zero hz3]
  simp only [View.ld_unit_zero (S := S1x256x64) hz3, View.ld_unit_zero (S := S1x2048x64) hz3]
  obtain ⟨-, -, -, -, -, -, -, -, -, e0, e1, e2, -⟩ := idx_facts t
  refine funext fun (j : S1x256x64.Idx) => ?_
  obtain ⟨u, r, d, rfl⟩ : ∃ (u : Fin 1) (r : Fin 256) (d : Fin 64), j = ix3 u r d := ⟨j 0, j 1, j 2, eq_ix3 j⟩
  show k0_pay3 (F := Ideal) (grid0.coords t) (iblk m c 0 t) (iblk m c 1 t) (iblk m c 2 t) (ix3 u r d)
    = output (V m c main_v0 : SArg.Idx → EReal) (V m c main_v1 : SArg.Idx → EReal) (V m c main_v2 : SArg.Idx → EReal)
        (((cfg0.win 3).blk t).view.emb (ix3 u r d))
  refine (pay3_apply (grid0.coords t) (iblk m c 0 t) (iblk m c 1 t) (iblk m c 2 t) (V m c main_v0 : SArg.Idx → EReal)
    (V m c main_v1 : SArg.Idx → EReal) (V m c main_v2 : SArg.Idx → EReal)
    (bat t) (qblk t) rfl (queries_block m c t) (keys_block m c t) (values_block m c t) u r d).trans ?_
  have he : ((cfg0.win 3).blk t).view.emb (ix3 u r d) = ix3 (bat t) (qrow (qblk t) r) d := funext fun a => Fin.ext (by
    have hu := u.isLt
    match a with
    | ⟨0, _⟩ => show win0_3.index t (0 : Fin 3) * 1 + 1 * u.val = (grid0.coords t 0).val; omega
    | ⟨1, _⟩ => show win0_3.index t (1 : Fin 3) * 256 + 1 * r.val = (grid0.coords t 1).val * 256 + r.val; omega
    | ⟨2, _⟩ => show win0_3.index t (2 : Fin 3) * 64 + 1 * d.val = d.val; omega)
  rw [he]
  rfl

end point

/-! ## The blocks tile the arrays -/

/-- An index of the weights array is in point t's block iff each coordinate is in the block's range on its axis. -/
theorem mem_weights_block (t : Fin cfg0.N) (i : S16x2048x2048.Idx) :
    i ∈ ((cfg0.win 4).blk t).view.set ↔ ∀ a : Fin 3, win0_4.index t a * S1x256x2048.size a ≤ (i a).val
      ∧ (i a).val < win0_4.index t a * S1x256x2048.size a + S1x256x2048.size a := by
  show i ∈ ((View.whole main_v3_1).slice (win0_4.rect t)).set ↔ _
  rw [View.set_slice_whole, Rect.mem_set_unit]
  exact Iff.rfl

theorem mem_output_block (t : Fin cfg0.N) (i : S16x2048x64.Idx) :
    i ∈ ((cfg0.win 3).blk t).view.set ↔ ∀ a : Fin 3, win0_3.index t a * S1x256x64.size a ≤ (i a).val
      ∧ (i a).val < win0_3.index t a * S1x256x64.size a + S1x256x64.size a := by
  show i ∈ ((View.whole main_v3_0).slice (win0_3.rect t)).set ↔ _
  rw [View.set_slice_whole, Rect.mem_set_unit]
  exact Iff.rfl

/-- Every index (b, q, k) of the weights is in the block of the point (b, q / 256). -/
theorem weights_cover (i : S16x2048x2048.Idx) :
    ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 2048 := (i 2).isLt
  obtain ⟨t, hb, hq⟩ := idx_onto ⟨(i 0).val, hi0⟩ ⟨(i 1).val / 256, by omega⟩
  obtain ⟨-, -, -, -, -, -, -, -, -, -, -, -, e0, e1, e2⟩ := idx_facts t
  refine ⟨t, flush0_4 t, ?_⟩
  rw [mem_weights_block]
  intro a
  match a with
  | ⟨0, _⟩ => show win0_4.index t (0 : Fin 3) * 1 ≤ (i 0).val ∧ (i 0).val < win0_4.index t (0 : Fin 3) * 1 + 1; simp only at hb hq; omega
  | ⟨1, _⟩ => show win0_4.index t (1 : Fin 3) * 256 ≤ (i 1).val ∧ (i 1).val < win0_4.index t (1 : Fin 3) * 256 + 256; simp only at hb hq; omega
  | ⟨2, _⟩ => show win0_4.index t (2 : Fin 3) * 2048 ≤ (i 2).val ∧ (i 2).val < win0_4.index t (2 : Fin 3) * 2048 + 2048; omega

/-- Every index (b, q, d) of the output is in the block of the point (b, q / 256). -/
theorem output_cover (i : S16x2048x64.Idx) :
    ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 64 := (i 2).isLt
  obtain ⟨t, hb, hq⟩ := idx_onto ⟨(i 0).val, hi0⟩ ⟨(i 1).val / 256, by omega⟩
  obtain ⟨-, -, -, -, -, -, -, -, -, e0, e1, e2, -⟩ := idx_facts t
  refine ⟨t, flush0_3 t, ?_⟩
  rw [mem_output_block]
  intro a
  match a with
  | ⟨0, _⟩ => show win0_3.index t (0 : Fin 3) * 1 ≤ (i 0).val ∧ (i 0).val < win0_3.index t (0 : Fin 3) * 1 + 1; simp only at hb hq; omega
  | ⟨1, _⟩ => show win0_3.index t (1 : Fin 3) * 256 ≤ (i 1).val ∧ (i 1).val < win0_3.index t (1 : Fin 3) * 256 + 256; simp only at hb hq; omega
  | ⟨2, _⟩ => show win0_3.index t (2 : Fin 3) * 64 ≤ (i 2).val ∧ (i 2).val < win0_3.index t (2 : Fin 3) * 64 + 64; omega

/-! ## The arrays after the run -/

/-- The weights array after the run. -/
theorem weights_final (c : Dev nD) : (dats m 0 c).arrAt 4 cfg0.N
    = weights (m ((c : Thread nD τ).loc main_arg0) : SArg.Idx → EReal) (m ((c : Thread nD τ).loc main_arg1) : SArg.Idx → EReal) := by
  rw [← V_queries m c, ← V_keys m c]
  exact (dats m 0 c).arrAt_eq_of_cover 4 _ (fun t _ => weights_flushed m c t) weights_cover

/-- The output array after the run. -/
theorem output_final (c : Dev nD) : (dats m 0 c).arrAt 3 cfg0.N
    = output (m ((c : Thread nD τ).loc main_arg0) : SArg.Idx → EReal) (m ((c : Thread nD τ).loc main_arg1) : SArg.Idx → EReal)
        (m ((c : Thread nD τ).loc main_arg2) : SArg.Idx → EReal) := by
  rw [← V_queries m c, ← V_keys m c, ← V_values m c]
  exact (dats m 0 c).arrAt_eq_of_cover 3 _ (fun t _ => output_flushed m c t) output_cover

/-! ## The run, read -/

/-- Every weakly fair execution of the idealized kernel terminates with its first result at the specification's output
    and its second at the specification's weights of the argument arrays, the arguments unchanged. -/
theorem run : θ_run defs (onTc (τ := τ) (main (F := Ideal))) ⟨m, fun _ => 0, ρ⟩ fun r => ∀ c : Dev nD,
      r.2.mem ((c : Thread nD τ).loc main_v3_0) = output (m ((c : Thread nD τ).loc main_arg0) : SArg.Idx → EReal)
        (m ((c : Thread nD τ).loc main_arg1) : SArg.Idx → EReal) (m ((c : Thread nD τ).loc main_arg2) : SArg.Idx → EReal)
      ∧ r.2.mem ((c : Thread nD τ).loc main_v3_1) = weights (m ((c : Thread nD τ).loc main_arg0) : SArg.Idx → EReal)
        (m ((c : Thread nD τ).loc main_arg1) : SArg.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (output_final m c), ((h c).1 4).trans (weights_final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.KernelIdeal.Attn

end
-- ==== Proof.lean ====
/- The proof of `Cert.Claim` (proofs.«104358_j47854525612275_2_alg».proof.Defs): a Pallas causal-attention kernel against its jnp reference,
   equal on the extended reals.

   Both programs compute, for queries, keys and values of shape [16, 2048, 64]: scores Q·Kᵀ scaled by 1/√64, a causal
   mask that replaces the keys after the query by -1e9, a softmax over the keys (the exponential of the score less the
   row's maximum, over the row's sum), and the product of the weights with the values; both return the output and the
   weights. The kernel works on blocks of 256 query rows over a 16 × 8 grid, on operands narrowed to bf16 — the identity
   on the extended reals — and multiplies by the word 1/8 where the reference divides by √64 = 8; the reference takes its
   row maximum once more against -∞. Index by index the two are one function (Proof/AttentionSpec.lean):
   Proof/ReferenceAttention.lean reads the reference's run as it, Proof/AttentionBlock.lean a grid point's block of the
   kernel, Proof/KernelAttention.lean the kernel's arrays after its run. No finiteness of the inputs is used: no law
   between the two sides needs it.

   The frames: the two kernels' by their frame certificates, the reference's by its run with the results dropped. The
   idealization rewrote no operation, so `preserves` holds trivially. -/
import proofs.«104358_j47854525612275_2_alg».proof.Defs
import proofs.«104358_j47854525612275_2_alg».proof.Proof.Gen.Kernel
import proofs.«104358_j47854525612275_2_alg».proof.Proof.Gen.KernelIdeal
import proofs.«104358_j47854525612275_2_alg».proof.Proof.Gen.ReferenceIdeal
import proofs.«104358_j47854525612275_2_alg».proof.Proof.Gen.Pre_finite_inputs
import proofs.«104358_j47854525612275_2_alg».proof.Proof.FrameKernel
import proofs.«104358_j47854525612275_2_alg».proof.Proof.FrameKernelIdeal
import proofs.«104358_j47854525612275_2_alg».proof.Proof.Gen.ReferenceIdeal.Run
import proofs.«104358_j47854525612275_2_alg».proof.Proof.Gen.ReferenceIdeal.Read
import proofs.«104358_j47854525612275_2_alg».proof.Proof.ReferenceAttention
import proofs.«104358_j47854525612275_2_alg».proof.Proof.KernelAttention
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.GenP.frame m ρ

/-- So does its idealization. -/
theorem frame_kernelIdeal : Cert.frame_KernelIdeal := fun m ρ _ => Cert.KernelIdeal.GenP.frame m ρ

/-- So does the reference: its run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- On the extended reals the kernel's output and weights are the specification's of its arguments, and the reference's
    are the specification's of its own, which agree. -/
theorem algebraic : Cert.algebraic_KernelIdeal_ReferenceIdeal := by
  intro m ρ m' ρ' _ hagree
  refine ⟨_, _, Cert.KernelIdeal.Attn.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v19_eq, Cert.Attention.Reference.output_eq, (hagree c).1, (hagree c).2.1, (hagree c).2.2]
  · rw [Cert.ReferenceIdeal.Read.val_main_v18_eq, Cert.Attention.Reference.weights_eq, (hagree c).1, (hagree c).2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
